-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S256 : Shape := ⟨1, ![256]⟩
abbrev S8x256x512 : Shape := ⟨3, ![8, 256, 512]⟩
abbrev S512x256 : Shape := ⟨2, ![512, 256]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S256 : S_.BroadcastsInDim S256 (![] : Fin 0 → Fin S256.rank)
  reducesTo_S256_S_d0 : S256.ReducesTo [0] S_
  bcast_S_S8x256x512 : S_.BroadcastsInDim S8x256x512 (![] : Fin 0 → Fin S8x256x512.rank)
  reducesTo_S8x256x512_S_d0_1_2 : S8x256x512.ReducesTo [0, 1, 2] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S65536x512 .f32) (main_arg1 : FVec F S256 .f32) (main_arg2 : FVec F S8x256x512 .f32) (main_arg3 : FVec F S512x256 .f32) (main_arg4 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S8x256x512 .f32 := Host.absf main_arg2
  let main_cst_2 : FVec F S_ .f32 := constant S_ .f32 0x7F800000#32
  let main_v10 : FVec F S8x256x512 .f32 := broadcastInDim S8x256x512 ![] bcast_S_S8x256x512 main_cst_2
  let main_v11 : IVec S8x256x512 1 := cmpf .olt main_v9 main_v10
  let main_c_3 : IVec S_ 1 := constantI S_ 1 1#1
  let main_v12 : IVec S_ 1 := (fun x v => Host.reduce IntOp.andi x v reducesTo_S8x256x512_S_d0_1_2 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_v13 main_v16
-- ==== Kernel.lean ====
abbrev S65536x512 : Shape := ⟨2, ![65536, 512]⟩
abbrev S256 : Shape := ⟨1, ![256]⟩
abbrev S8x256x512 : Shape := ⟨3, ![8, 256, 512]⟩
abbrev S512x256 : Shape := ⟨2, ![512, 256]⟩
abbrev S512 : Shape := ⟨1, ![512]⟩
abbrev S8 : Shape := ⟨1, ![8]⟩
abbrev S8x1x1 : Shape := ⟨3, ![8, 1, 1]⟩
abbrev S512x8x256 : Shape := ⟨3, ![512, 8, 256]⟩
abbrev S512x2048 : Shape := ⟨2, ![512, 2048]⟩
abbrev S256x512 : Shape := ⟨2, ![256, 512]⟩
abbrev S1x256 : Shape := ⟨2, ![1, 256]⟩
abbrev S1x512 : Shape := ⟨2, ![1, 512]⟩
abbrev S1024x512 : Shape := ⟨2, ![1024, 512]⟩
abbrev S1024x2048 : Shape := ⟨2, ![1024, 2048]⟩
abbrev S1024x256 : Shape := ⟨2, ![1024, 256]⟩

abbrev nBuf : Space → Nat
  | .hbm => 17
  | .vmem => 8
  | .smem => 0
  | _ => 0

abbrev bufTy : (tb : Table) → Fin (tcTables nBuf tb) → BufTy
  | .hbm, ⟨0, _⟩ => ⟨S65536x512, .f32⟩
  | .hbm, ⟨1, _⟩ => ⟨S256, .f32⟩
  | .hbm, ⟨2, _⟩ => ⟨S8x256x512, .f32⟩
  | .hbm, ⟨3, _⟩ => ⟨S512x256, .f32⟩
  | .hbm, ⟨4, _⟩ => ⟨S512, .f32⟩
  | .hbm, ⟨5, _⟩ => ⟨S8, .f32⟩
  | .hbm, ⟨6, _⟩ => ⟨S8x1x1, .f32⟩
  | .hbm, ⟨7, _⟩ => ⟨S8x256x512, .f32⟩
  | .hbm, ⟨8, _⟩ => ⟨S8x256x512, .f32⟩
  | .hbm, ⟨9, _⟩ => ⟨S512x8x256, .f32⟩
  | .hbm, ⟨10, _⟩ => ⟨S512x2048, .f32⟩
  | .hbm, ⟨11, _⟩ => ⟨S512x2048, .bf16⟩
  | .hbm, ⟨12, _⟩ => ⟨S256x512, .f32⟩
  | .hbm, ⟨13, _⟩ => ⟨S256x512, .bf16⟩
  | .hbm, ⟨14, _⟩ => ⟨S1x256, .f32⟩
  | .hbm, ⟨15, _⟩ => ⟨S1x512, .f32⟩
  | .hbm, ⟨16, _⟩ => ⟨S65536x512, .f32⟩
  | .local _ .vmem, ⟨0, _⟩ => ⟨S1024x512, .f32⟩
  | .local _ .vmem, ⟨1, _⟩ => ⟨S1024x512, .f32⟩
  | .local _ .vmem, ⟨2, _⟩ => ⟨S1x256, .f32⟩
  | .local _ .vmem, ⟨3, _⟩ => ⟨S512x2048, .bf16⟩
  | .local _ .vmem, ⟨4, _⟩ => ⟨S256x512, .bf16⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S8_S8x1x1_0 : S8.BroadcastsInDim S8x1x1 (![0] : Fin 1 → Fin S8x1x1.rank)
  bcast_S8x1x1_S8x256x512_0_1_2 : S8x1x1.BroadcastsInDim S8x256x512 (![0, 1, 2] : Fin 3 → Fin S8x256x512.rank)
  transposes_S8x256x512_S512x8x256_2_0_1 : S8x256x512.Transposes [2, 0, 1] S512x8x256
  shapeCasts_S512x8x256_S512x2048 : S512x8x256.ShapeCasts S512x2048
  bitsLt_bf16_f32 : FTy.bits .bf16 < FTy.bits .f32
  transposes_S512x256_S256x512_1_0 : S512x256.Transposes [1, 0] S256x512
  shapeCasts_S256_S1x256 : S256.ShapeCasts S1x256
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  slices_S1024x2048_o0_0_S1024x256 : S1024x2048.Slices ![0, 0] S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  slices_S1024x2048_o0_256_S1024x256 : S1024x2048.Slices ![0, 256] S1024x256
  slices_S1024x2048_o0_512_S1024x256 : S1024x2048.Slices ![0, 512] S1024x256
  slices_S1024x2048_o0_768_S1024x256 : S1024x2048.Slices ![0, 768] S1024x256
  slices_S1024x2048_o0_1024_S1024x256 : S1024x2048.Slices ![0, 1024] S1024x256
  slices_S1024x2048_o0_1280_S1024x256 : S1024x2048.Slices ![0, 1280] S1024x256
  slices_S1024x2048_o0_1536_S1024x256 : S1024x2048.Slices ![0, 1536] S1024x256
  slices_S1024x2048_o0_1792_S1024x256 : S1024x2048.Slices ![0, 1792] S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x2048_S1024x2048_1_0_0_1_n_n_wf : DotDims.WF S1024x512 S512x2048 S1024x2048 [1] [0] [0] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .bf16 = 32 ∨ (Rect.block (s := S512x2048) S512x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S65536x512.size a
  hwx0_5 : ∀ i : grid0.Coords, EltTy.bits .f32 = 32 ∨ (Rect.block (s := S65536x512) S1024x512.size (cc0_transform_5 i) (hinb0_5 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x512 : Shape := ⟨2, ![65536, 512]⟩
abbrev S256 : Shape := ⟨1, ![256]⟩
abbrev S8x256x512 : Shape := ⟨3, ![8, 256, 512]⟩
abbrev S512x256 : Shape := ⟨2, ![512, 256]⟩
abbrev S512 : Shape := ⟨1, ![512]⟩
abbrev S1x256x512 : Shape := ⟨3, ![1, 256, 512]⟩
abbrev S256x512 : Shape := ⟨2, ![256, 512]⟩
abbrev S65536x256 : Shape := ⟨2, ![65536, 256]⟩
abbrev S_ : Shape := ⟨0, ![]⟩
abbrev S1x256 : Shape := ⟨2, ![1, 256]⟩
abbrev S1x512 : Shape := ⟨2, ![1, 512]⟩

abbrev nBuf : Space → Nat
  | .hbm => 92
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S256, .f32⟩
  | .hbm, ⟨2, _⟩ => ⟨S8x256x512, .f32⟩
  | .hbm, ⟨3, _⟩ => ⟨S512x256, .f32⟩
  | .hbm, ⟨4, _⟩ => ⟨S512, .f32⟩
  | .hbm, ⟨5, _⟩ => ⟨S1x256x512, .f32⟩
  | .hbm, ⟨6, _⟩ => ⟨S256x512, .f32⟩
  | .hbm, ⟨7, _⟩ => ⟨S65536x256, .f32⟩
  | .hbm, ⟨8, _⟩ => ⟨S1x256x512, .f32⟩
  | .hbm, ⟨9, _⟩ => ⟨S256x512, .f32⟩
  | .hbm, ⟨10, _⟩ => ⟨S_, .f32⟩
  | .hbm, ⟨11, _⟩ => ⟨S256x512, .f32⟩
  | .hbm, ⟨12, _⟩ => ⟨S256x512, .f32⟩
  | .hbm, ⟨13, _⟩ => ⟨S65536x256, .f32⟩
  | .hbm, ⟨14, _⟩ => ⟨S65536x256, .f32⟩
  | .hbm, ⟨15, _⟩ => ⟨S_, .f32⟩
  | .hbm, ⟨16, _⟩ => ⟨S256, .f32⟩
  | .hbm, ⟨17, _⟩ => ⟨S256, .f32⟩
  | .hbm, ⟨18, _⟩ => ⟨S1x256, .f32⟩
  | .hbm, ⟨19, _⟩ => ⟨S65536x256, .f32⟩
  | .hbm, ⟨20, _⟩ => ⟨S65536x256, .f32⟩
  | .hbm, ⟨21, _⟩ => ⟨S1x256x512, .f32⟩
  | .hbm, ⟨22, _⟩ => ⟨S256x512, .f32⟩
  | .hbm, ⟨23, _⟩ => ⟨S_, .f32⟩
  | .hbm, ⟨24, _⟩ => ⟨S256x512, .f32⟩
  | .hbm, ⟨25, _⟩ => ⟨S256x512, .f32⟩
  | .hbm, ⟨26, _⟩ => ⟨S65536x256, .f32⟩
  | .hbm, ⟨27, _⟩ => ⟨S65536x256, .f32⟩
  | .hbm, ⟨28, _⟩ => ⟨S_, .f32⟩
  | .hbm, ⟨29, _⟩ => ⟨S65536x256, .f32⟩
  | .hbm, ⟨30, _⟩ => ⟨S65536x256, .f32⟩
  | .hbm, ⟨31, _⟩ => ⟨S65536x256, .f32⟩
  | .hbm, ⟨32, _⟩ => ⟨S1x256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | .hbm, ⟨37, _⟩ => ⟨S65536x256, .f32⟩
  | .hbm, ⟨38, _⟩ => ⟨S65536x256, .f32⟩
  | .hbm, ⟨39, _⟩ => ⟨S_, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S1x256x512, .f32⟩
  | .hbm, ⟨44, _⟩ => ⟨S256x512, .f32⟩
  | .hbm, ⟨45, _⟩ => ⟨S_, .f32⟩
  | .hbm, ⟨46, _⟩ => ⟨S256x512, .f32⟩
  | .hbm, ⟨47, _⟩ => ⟨S256x512, .f32⟩
  | .hbm, ⟨48, _⟩ => ⟨S65536x256, .f32⟩
  | .hbm, ⟨49, _⟩ => ⟨S65536x256, .f32⟩
  | .hbm, ⟨50, _⟩ => ⟨S_, .f32⟩
  | .hbm, ⟨51, _⟩ => ⟨S65536x256, .f32⟩
  | .hbm, ⟨52, _⟩ => ⟨S65536x256, .f32⟩
  | .hbm, ⟨53, _⟩ => ⟨S65536x256, .f32⟩
  | .hbm, ⟨54, _⟩ => ⟨S1x256x512, .f32⟩
  | .hbm, ⟨55, _⟩ => ⟨S256x512, .f32⟩
  | .hbm, ⟨56, _⟩ => ⟨S_, .f32⟩
  | .hbm, ⟨57, _⟩ => ⟨S256x512, .f32⟩
  | .hbm, ⟨58, _⟩ => ⟨S256x512, .f32⟩
  | .hbm, ⟨59, _⟩ => ⟨S65536x256, .f32⟩
  | .hbm, ⟨60, _⟩ => ⟨S65536x256, .f32⟩
  | .hbm, ⟨61, _⟩ => ⟨S_, .f32⟩
  | .hbm, ⟨62, _⟩ => ⟨S65536x256, .f32⟩
  | .hbm, ⟨63, _⟩ => ⟨S65536x256, .f32⟩
  | .hbm, ⟨64, _⟩ => ⟨S65536x256, .f32⟩
  | .hbm, ⟨65, _⟩ => ⟨S1x256x512, .f32⟩
  | .hbm, ⟨66, _⟩ => ⟨S256x512, .f32⟩
  | .hbm, ⟨67, _⟩ => ⟨S_, .f32⟩
  | .hbm, ⟨68, _⟩ => ⟨S256x512, .f32⟩
  | .hbm, ⟨69, _⟩ => ⟨S256x512, .f32⟩
  | .hbm, ⟨70, _⟩ => ⟨S65536x256, .f32⟩
  | .hbm, ⟨71, _⟩ => ⟨S65536x256, .f32⟩
  | .hbm, ⟨72, _⟩ => ⟨S_, .f32⟩
  | .hbm, ⟨73, _⟩ => ⟨S65536x256, .f32⟩
  | .hbm, ⟨74, _⟩ => ⟨S65536x256, .f32⟩
  | .hbm, ⟨75, _⟩ => ⟨S65536x256, .f32⟩
  | .hbm, ⟨76, _⟩ => ⟨S1x256x512, .f32⟩
  | .hbm, ⟨77, _⟩ => ⟨S256x512, .f32⟩
  | .hbm, ⟨78, _⟩ => ⟨S_, .f32⟩
  | .hbm, ⟨79, _⟩ => ⟨S256x512, .f32⟩
  | .hbm, ⟨80, _⟩ => ⟨S256x512, .f32⟩
  | .hbm, ⟨81, _⟩ => ⟨S65536x256, .f32⟩
  | .hbm, ⟨82, _⟩ => ⟨S65536x256, .f32⟩
  | .hbm, ⟨83, _⟩ => ⟨S_, .f32⟩
  | .hbm, ⟨84, _⟩ => ⟨S65536x256, .f32⟩
  | .hbm, ⟨85, _⟩ => ⟨S65536x256, .f32⟩
  | .hbm, ⟨86, _⟩ => ⟨S65536x256, .f32⟩
  | .hbm, ⟨87, _⟩ => ⟨S256x512, .f32⟩
  | .hbm, ⟨88, _⟩ => ⟨S65536x512, .f32⟩
  | .hbm, ⟨89, _⟩ => ⟨S1x512, .f32⟩
  | .hbm, ⟨90, _⟩ => ⟨S65536x512, .f32⟩
  | .hbm, ⟨91, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_11 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_12 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]

class Facts₀ : Prop where
  slices_S8x256x512_S1x256x512_0_0_0 : S8x256x512.Slices ![0, 0, 0] S1x256x512
  shapeCasts_S1x256x512_S256x512 : S1x256x512.ShapeCasts S256x512
  slices_S8x256x512_S1x256x512_1_0_0 : S8x256x512.Slices ![1, 0, 0] S1x256x512
  bcast_S_S256x512 : S_.BroadcastsInDim S256x512 (![] : Fin 0 → Fin S256x512.rank)
  bcast_S_S256 : S_.BroadcastsInDim S256 (![] : Fin 0 → Fin S256.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  slices_S8x256x512_S1x256x512_2_0_0 : S8x256x512.Slices ![2, 0, 0] S1x256x512
  bcast_S_S65536x256 : S_.BroadcastsInDim S65536x256 (![] : Fin 0 → Fin S65536x256.rank)
  slices_S8x256x512_S1x256x512_3_0_0 : S8x256x512.Slices ![3, 0, 0] S1x256x512
  slices_S8x256x512_S1x256x512_4_0_0 : S8x256x512.Slices ![4, 0, 0] S1x256x512
  slices_S8x256x512_S1x256x512_5_0_0 : S8x256x512.Slices ![5, 0, 0] S1x256x512
  slices_S8x256x512_S1x256x512_6_0_0 : S8x256x512.Slices ![6, 0, 0] S1x256x512
  slices_S8x256x512_S1x256x512_7_0_0 : S8x256x512.Slices ![7, 0, 0] S1x256x512
  transposes_S512x256_S256x512_1_0 : S512x256.Transposes [1, 0] S256x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  dot_S65536x512_S256x512_S65536x256_1_1_0_0_n_n_wf : DotDims.WF S65536x512 S256x512 S65536x256 [1] [1] [0] [0] [] []
  dot_S65536x256_S256x512_S65536x512_1_0_0_1_n_n_wf : DotDims.WF S65536x256 S256x512 S65536x512 [1] [0] [0] [1] [] []

variable [Facts₀]

def dot_S65536x512_S256x512_S65536x256_1_1_0_0_n_n : DotDims S65536x512 S256x512 S65536x256 where
  lhsContracting := [1]
  rhsContracting := [1]
  lhsNonContracting := [0]
  rhsNonContracting := [0]
  lhsBatch := []
  rhsBatch := []
  wf := dot_S65536x512_S256x512_S65536x256_1_1_0_0_n_n_wf
def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf

class Facts : Prop extends Facts₀ where

variable [Facts]
-- ==== Proof.LegendreSpec.lean ====
/-
  The network both programs compute, as one function of the five argument arrays.

  For a row i of z (65536 × 512), a feature k (256 of them) and a degree n = 1 … 8, the degree's projection is
      s_n(i, k) = Σ_d z[i, d] · w_n[k, d],
  where w_1 = T[0] and w_n = a_n · T[n-1] for n ≥ 2 with a_n = (2n - 1)/n rounded to f32. The three-term recurrence
      P_0 = T0[k],   P_1 = s_1,   P_n = s_n · P_{n-1} - b_n · P_{n-2}   (b_n = (n - 1)/n rounded to f32)
  runs up to degree 8, and the output is the affine layer
      out[i, o] = Σ_k P_8(i, k) · C_w[o, k] + C_b[o].
  Every float constant is kept as the extended real its f32 pattern denotes; both programs spell the same patterns, so
  no pattern is ever evaluated — except 1.0, by which one of the two programs scales the degree-1 weights.
-/
import Idealize.ShloMosaic.Lib.ValueIdx
import Idealize.ShloMosaic.PureOps.Ideal.Laws

noncomputable section

open scoped BigOperators

namespace Cert.Legendre

open Idealize.ShloMosaic Idealize.ShloMosaic.ValueIdx

/-- The f32 pattern of 1.0 denotes the extended real 1. -/
theorem ofBits_one : Ideal.ofBits .f32 0x3F800000#32 = 1 := by
  simp [Ideal.ofBits, Ideal.ieee, -EReal.coe_mul]; norm_num

/-- Row i of z against one weight row: Σ_d z[i, d] · w d. -/
def proj (z : (⟨2, ![65536, 512]⟩ : Shape).Idx → EReal) (i : Fin 65536) (w : Fin 512 → EReal) : EReal :=
  ∑ d : Fin 512, z (ix2 i d) * w d

/-- The recurrence from the eight projections s1 … s8 at one (row, feature) and the degree-0 value p0, up to
    degree 8: P_n = s_n · P_{n-1} - b_n · P_{n-2}, with b_n the f32 patterns of 1/2, 2/3, 3/4, 4/5, 5/6, 6/7, 7/8. -/
def leg (s1 s2 s3 s4 s5 s6 s7 s8 p0 : EReal) : EReal :=
  let o1 := s1
  let o2 := s2 * o1 - Ideal.ofBits .f32 0x3F000000#32 * p0
  let o3 := s3 * o2 - Ideal.ofBits .f32 0x3F2AAAAB#32 * o1
  let o4 := s4 * o3 - Ideal.ofBits .f32 0x3F400000#32 * o2
  let o5 := s5 * o4 - Ideal.ofBits .f32 0x3F4CCCCD#32 * o3
  let o6 := s6 * o5 - Ideal.ofBits .f32 0x3F555555#32 * o4
  let o7 := s7 * o6 - Ideal.ofBits .f32 0x3F5B6DB7#32 * o5
  s8 * o7 - Ideal.ofBits .f32 0x3F600000#32 * o6

variable (z : (⟨2, ![65536, 512]⟩ : Shape).Idx → EReal) (t0 : (⟨1, ![256]⟩ : Shape).Idx → EReal)
  (T : (⟨3, ![8, 256, 512]⟩ : Shape).Idx → EReal) (cw : (⟨2, ![512, 256]⟩ : Shape).Idx → EReal)
  (cb : (⟨1, ![512]⟩ : Shape).Idx → EReal)

/-- The degree-8 value at row i and feature k: the recurrence over the eight projections of row i, the degree-1
    weights unscaled and degree n's scaled by a_n (the f32 patterns of 3/2, 5/3, 7/4, 9/5, 11/6, 13/7, 15/8). -/
def deg8 (i : Fin 65536) (k : Fin 256) : EReal :=
  leg (proj z i fun d => T (ix3 (0 : Fin 8) k d))
    (proj z i fun d => Ideal.ofBits .f32 0x3FC00000#32 * T (ix3 (1 : Fin 8) k d))
    (proj z i fun d => Ideal.ofBits .f32 0x3FD55555#32 * T (ix3 (2 : Fin 8) k d))
    (proj z i fun d => Ideal.ofBits .f32 0x3FE00000#32 * T (ix3 (3 : Fin 8) k d))
    (proj z i fun d => Ideal.ofBits .f32 0x3FE66666#32 * T (ix3 (4 : Fin 8) k d))
    (proj z i fun d => Ideal.ofBits .f32 0x3FEAAAAB#32 * T (ix3 (5 : Fin 8) k d))
    (proj z i fun d => Ideal.ofBits .f32 0x3FEDB6DB#32 * T (ix3 (6 : Fin 8) k d))
    (proj z i fun d => Ideal.ofBits .f32 0x3FF00000#32 * T (ix3 (7 : Fin 8) k d))
    (t0 (ix1 k))

/-- The output at row i and column o: the affine layer over the degree-8 values. -/
def outAt (i : Fin 65536) (o : Fin 512) : EReal :=
  (∑ k : Fin 256, deg8 z t0 T i k * cw (ix2 o k)) + cb (ix1 o)

/-- The whole output array. -/
def net : (⟨2, ![65536, 512]⟩ : Shape).Idx → EReal := fun j => outAt z t0 T cw cb (j 0) (j 1)

theorem net_ix2 (i : Fin 65536) (o : Fin 512) : net z t0 T cw cb (ix2 i o) = outAt z t0 T cw cb i o := rfl

/-- A projection against weights scaled on the RIGHT is the projection against weights scaled on the left:
    multiplication of extended reals commutes, term by term. -/
theorem proj_scale_comm (i : Fin 65536) (a : EReal) (w : Fin 512 → EReal) :
    proj z i (fun d => w d * a) = proj z i (fun d => a * w d) :=
  Finset.sum_congr rfl fun d _ => congrArg (z (ix2 i d) * ·) (mul_comm (w d) a)

/-- A projection against weights scaled by the pattern of 1.0 is the projection against the weights. -/
theorem proj_scale_one (i : Fin 65536) (w : Fin 512 → EReal) :
    proj z i (fun d => w d * Ideal.ofBits .f32 0x3F800000#32) = proj z i w :=
  Finset.sum_congr rfl fun d _ => congrArg (z (ix2 i d) * ·)
    (show w d * Ideal.ofBits .f32 0x3F800000#32 = w d by rw [ofBits_one, mul_one])

end Cert.Legendre

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.KernelBody.lean ====
/-
  What the kernel body computes, read at one entry of its 1024 × 512 output block.

  The body forms ONE product S = x · W of the row block x (1024 × 512) with the packed weights W (512 × 2048), cuts
  S into eight 256-column slabs — slab n holds degree n+1's projections —, runs the three-term recurrence on the
  slabs entry by entry starting from the degree-0 row broadcast down the block, and applies the affine layer: a
  second product with the 256 × 512 matrix, plus the bias row broadcast down the block. Roundings to bf16 on the way
  into the two products are the identity on extended reals.
-/
import proofs.«154726_j21371757265197_2_alg».proof.Proof.Gen.KernelIdeal.Skeleton
import proofs.«154726_j21371757265197_2_alg».proof.Proof.LegendreSpec
import proofs.«154726_j21371757265197_2_alg».proof.Proof.LibPlainDot
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.Legendre

/-- Entry (p, c) of the product of the row block with the packed weights. -/
def fused (x0 : FVec Ideal S1024x512 .f32) (x2 : FVec Ideal S512x2048 .bf16) (p : Fin 1024) (c : Fin 2048) : EReal :=
  ∑ d : Fin 512, x0 (ix2 p d) * x2 (ix2 d c)

/-- The body's first product, read at an entry: into a zero accumulator it is the plain row-by-column sum; the
    rounding of the left operand and the same-shape cast of the right one change nothing. -/
theorem product1_apply (x0 : FVec Ideal S1024x512 .f32) (x2 : FVec Ideal S512x2048 .bf16) (p : Fin 1024) (c : Fin 2048) :
    matmul (F := Ideal) dot_S1024x512_S512x2048_S1024x2048_1_0_0_1_n_n none (truncf .bf16 x0 bitsLt_bf16_f32)
        (shapeCast S512x2048 x2 shapeCasts_S512x2048_S512x2048) (constant S1024x2048 .f32 0x00000000#32) (ix2 p c)
      = fused x0 x2 p c := by
  rw [shapeCast_self]
  exact Cert.LibPlainDot.matmul_zero_apply (M := 1024) (K := 512) (N := 2048) none (truncf .bf16 x0 bitsLt_bf16_f32) x2 p c

/-- Slab `off / 256` of the product, read at (p, k): the product's entry in column `off + k`. -/
theorem slab_apply (x0 : FVec Ideal S1024x512 .f32) (x2 : FVec Ideal S512x2048 .bf16) (off : Nat)
    (h : S1024x2048.Slices ![0, off] S1024x256) (p : Fin 1024) (k : Fin 256) (c : Fin 2048) (hc : c.val = off + k.val) :
    extractStridedSlice S1024x256 ![0, off]
        (matmul (F := Ideal) dot_S1024x512_S512x2048_S1024x2048_1_0_0_1_n_n none (truncf .bf16 x0 bitsLt_bf16_f32)
          (shapeCast S512x2048 x2 shapeCasts_S512x2048_S512x2048) (constant S1024x2048 .f32 0x00000000#32)) h (ix2 p k)
      = fused x0 x2 p c :=
  (slice2_axis1_apply off _ h p k c hc).trans (product1_apply x0 x2 p c)

/-- The degree-0 row, cast twice to its own shape and broadcast down the block, read at (p, k). -/
theorem row0_apply (x1 : FVec Ideal S1x256 .f32) (p : Fin 1024) (k : Fin 256) :
    broadcastTo S1024x256 (shapeCast S1x256 (shapeCast S1x256 x1 shapeCasts_S1x256_S1x256) shapeCasts_S1x256_S1x256)
        broadcasts_S1x256_S1024x256 (ix2 p k) = x1 (ix2 (0 : Fin 1) k) := by
  rw [shapeCast_self, shapeCast_self]
  exact broadcastTo_1b_ab_apply x1 broadcasts_S1x256_S1024x256 p k

/-- The recurrence payload at (p, k): the recurrence over the eight slabs' entries and the degree-0 row's. -/
theorem recurrence_apply (x0 : FVec Ideal S1024x512 .f32) (x2 : FVec Ideal S512x2048 .bf16) (x1 : FVec Ideal S1x256 .f32)
    (p : Fin 1024) (k : Fin 256) :
    k0_pay2 (F := Ideal) x0 x2 x1 (ix2 p k)
      = leg (fused x0 x2 p ⟨0 + k.val, by omega⟩) (fused x0 x2 p ⟨256 + k.val, by omega⟩)
          (fused x0 x2 p ⟨512 + k.val, by omega⟩) (fused x0 x2 p ⟨768 + k.val, by omega⟩)
          (fused x0 x2 p ⟨1024 + k.val, by omega⟩) (fused x0 x2 p ⟨1280 + k.val, by omega⟩)
          (fused x0 x2 p ⟨1536 + k.val, by omega⟩) (fused x0 x2 p ⟨1792 + k.val, by omega⟩)
          (x1 (ix2 (0 : Fin 1) k)) := by
  rw [← slab_apply x0 x2 0 slices_S1024x2048_o0_0_S1024x256 p k _ rfl,
    ← slab_apply x0 x2 256 slices_S1024x2048_o0_256_S1024x256 p k _ rfl,
    ← slab_apply x0 x2 512 slices_S1024x2048_o0_512_S1024x256 p k _ rfl,
    ← slab_apply x0 x2 768 slices_S1024x2048_o0_768_S1024x256 p k _ rfl,
    ← slab_apply x0 x2 1024 slices_S1024x2048_o0_1024_S1024x256 p k _ rfl,
    ← slab_apply x0 x2 1280 slices_S1024x2048_o0_1280_S1024x256 p k _ rfl,
    ← slab_apply x0 x2 1536 slices_S1024x2048_o0_1536_S1024x256 p k _ rfl,
    ← slab_apply x0 x2 1792 slices_S1024x2048_o0_1792_S1024x256 p k _ rfl,
    ← row0_apply x1 p k]
  rfl

/-- The affine payload at (p, q): row p of its left operand against column q of the 256 × 512 matrix, plus the
    bias row's entry q. -/
theorem affine_apply (y : FVec Ideal S1024x256 .f32) (x3 : FVec Ideal S256x512 .bf16) (x4 : FVec Ideal S1x512 .f32)
    (p : Fin 1024) (q : Fin 512) :
    k0_pay1 (F := Ideal) y x3 x4 (ix2 p q) = (∑ k : Fin 256, y (ix2 p k) * x3 (ix2 k q)) + x4 (ix2 (0 : Fin 1) q) := by
  have e1 : matmul (F := Ideal) dot_S1024x256_S256x512_S1024x512_1_0_0_1_n_n none (truncf .bf16 y bitsLt_bf16_f32)
        (shapeCast S256x512 x3 shapeCasts_S256x512_S256x512) (constant S1024x512 .f32 0x00000000#32) (ix2 p q)
      = ∑ k : Fin 256, y (ix2 p k) * x3 (ix2 k q) := by
    rw [shapeCast_self]
    exact Cert.LibPlainDot.matmul_zero_apply (M := 1024) (K := 256) (N := 512) none (truncf .bf16 y bitsLt_bf16_f32) x3 p q
  have e2 : broadcastTo S1024x512 (shapeCast S1x512 x4 shapeCasts_S1x512_S1x512) broadcasts_S1x512_S1024x512 (ix2 p q)
      = x4 (ix2 (0 : Fin 1) q) := by
    rw [shapeCast_self]
    exact broadcastTo_1b_ab_apply x4 broadcasts_S1x512_S1024x512 p q
  rw [← e1, ← e2]
  rfl

/-- The whole body at entry (p, q) of its output block, from the five blocks it loads. -/
theorem body_apply (x0 : FVec Ideal S1024x512 .f32) (x1 : FVec Ideal S1x256 .f32) (x2 : FVec Ideal S512x2048 .bf16)
    (x3 : FVec Ideal S256x512 .bf16) (x4 : FVec Ideal S1x512 .f32) (p : Fin 1024) (q : Fin 512) :
    k0_pay1 (F := Ideal) (k0_pay2 (F := Ideal) x0 x2 x1) x3 x4 (ix2 p q)
      = (∑ k : Fin 256,
          leg (fused x0 x2 p ⟨0 + k.val, by omega⟩) (fused x0 x2 p ⟨256 + k.val, by omega⟩)
            (fused x0 x2 p ⟨512 + k.val, by omega⟩) (fused x0 x2 p ⟨768 + k.val, by omega⟩)
            (fused x0 x2 p ⟨1024 + k.val, by omega⟩) (fused x0 x2 p ⟨1280 + k.val, by omega⟩)
            (fused x0 x2 p ⟨1536 + k.val, by omega⟩) (fused x0 x2 p ⟨1792 + k.val, by omega⟩)
            (x1 (ix2 (0 : Fin 1) k)) * x3 (ix2 k q))
        + x4 (ix2 (0 : Fin 1) q) := by
  rw [affine_apply]
  refine congrArg (· + x4 (ix2 (0 : Fin 1) q)) (Finset.sum_congr rfl fun k _ => ?_)
  rw [recurrence_apply]

end Cert.KernelIdeal.Body

end
-- ==== Proof.KernelOperands.lean ====
/-
  The arrays the kernel's region is launched on, as functions of the program's arguments.

  Before the launch the host packs the weights: T (8 × 256 × 512) is scaled, degree by degree, by the table
  a = (1, 3/2, 5/3, 7/4, 9/5, 11/6, 13/7, 15/8) of f32 patterns, its axes are exchanged to (512, 8, 256), and the last two
  axes are flattened, so that packed column n · 256 + k of row d holds T[n, k, d] · a[n]. C_w is transposed, and T0 and
  C_b each get a leading unit axis. The roundings to bf16 are the identity on extended reals.
-/
import proofs.«154726_j21371757265197_2_alg».proof.Proof.Gen.KernelIdeal.Frame
import Idealize.ShloMosaic.Lib.ValueLayout
import Idealize.ShloMosaic.Lib.Pipeline.Value
import Idealize.ShloMosaic.Lib.StableHlo.Run

noncomputable section

namespace Cert.KernelIdeal.Operands

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (c : Dev nD)

/-- The five arguments on core c, as arrays of extended reals. -/
abbrev argZ : S65536x512.Idx → EReal := m ((c : Thread nD τ).loc main_arg0)
abbrev argT0 : S256.Idx → EReal := m ((c : Thread nD τ).loc main_arg1)
abbrev argT : S8x256x512.Idx → EReal := m ((c : Thread nD τ).loc main_arg2)
abbrev argCw : S512x256.Idx → EReal := m ((c : Thread nD τ).loc main_arg3)
abbrev argCb : S512.Idx → EReal := m ((c : Thread nD τ).loc main_arg4)

/-- The packed weights the region finds: T scaled by the table, axes exchanged, flattened. -/
theorem packed_eq : (V m c main_v5 : S512x2048.Idx → EReal)
    = truncf (F := Ideal) .bf16 (shapeCast S512x2048 (transpose S512x8x256 [2, 0, 1]
        (mulf (argT m c)
          (broadcastInDim S8x256x512 ![0, 1, 2] bcast_S8x1x1_S8x256x512_0_1_2
            (broadcastInDim S8x1x1 ![0] bcast_S8_S8x1x1_0 fun i => FloatOps.ofBits (F := Ideal) .f32 (lit0 (S8.rowMajor i)))))
        transposes_S8x256x512_S512x8x256_2_0_1) shapeCasts_S512x8x256_S512x2048) bitsLt_bf16_f32 := by
  dsimp only [Gen.V, Gen.hostOps0]; after_results; rfl

/-- Packed column n · 256 + k of row d is T[n, k, d] scaled by the table's entry n. -/
theorem packed_apply (d : Fin 512) (n : Fin 8) (k : Fin 256) (col : Fin 2048) (hcol : col.val = n.val * 256 + k.val) :
    V m c main_v5 (ix2 d col) = argT m c (ix3 n k d) * Ideal.ofBits .f32 (lit0 n) := by
  rw [packed_eq]
  refine (truncf_apply (ψ := .bf16) _ bitsLt_bf16_f32 _).trans ?_
  refine (shapeCast_apply _ shapeCasts_S512x8x256_S512x2048 (ix2 d col) (ix3 d n k) ?_).trans ?_
  · rw [Shape.rowMajor_val_three, Shape.rowMajor_val_two]
    show (d.val * 8 + n.val) * 256 + k.val = d.val * 2048 + col.val
    omega
  refine (transpose_apply [2, 0, 1] _ transposes_S8x256x512_S512x8x256_2_0_1 (ix3 d n k) (ix3 n k d)
    (fun b => match b with | ⟨0, _⟩ => rfl | ⟨1, _⟩ => rfl | ⟨2, _⟩ => rfl)).trans ?_
  refine (mulf_apply _ _ _).trans ?_
  refine congrArg (argT m c (ix3 n k d) * ·) ?_
  refine (broadcastInDim_apply ![0, 1, 2] bcast_S8x1x1_S8x256x512_0_1_2 _ (ix3 n k d) (ix3 n (0 : Fin 1) (0 : Fin 1))
    (fun a => match a with
      | ⟨0, _⟩ => by show n.val = if (8 : Nat) = 1 then 0 else n.val; rw [if_neg (by decide)]
      | ⟨1, _⟩ => by show 0 = if (1 : Nat) = 1 then 0 else k.val; rw [if_pos rfl]
      | ⟨2, _⟩ => by show 0 = if (1 : Nat) = 1 then 0 else d.val; rw [if_pos rfl])).trans ?_
  refine (broadcastInDim_apply ![0] bcast_S8_S8x1x1_0 _ (ix3 n (0 : Fin 1) (0 : Fin 1)) (ix1 n)
    (fun a => match a with
      | ⟨0, _⟩ => by show n.val = if (8 : Nat) = 1 then 0 else n.val; rw [if_neg (by decide)])).trans ?_
  show Ideal.ofBits .f32 (lit0 (S8.rowMajor (ix1 n))) = Ideal.ofBits .f32 (lit0 n)
  exact congrArg (fun j => Ideal.ofBits .f32 (lit0 j)) (Fin.ext (Shape.rowMajor_val_one _))

/-- The transposed C_w the region finds. -/
theorem cwT_eq : (V m c main_v7 : S256x512.Idx → EReal)
    = truncf (F := Ideal) .bf16 (transpose S256x512 [1, 0] (argCw m c) transposes_S512x256_S256x512_1_0)
        bitsLt_bf16_f32 := by
  dsimp only [Gen.V, Gen.hostOps0]; after_results

/-- Its entry (k, q) is C_w[q, k]. -/
theorem cwT_apply (k : Fin 256) (q : Fin 512) :
    V m c main_v7 (ix2 k q) = argCw m c (ix2 q k) := by
  rw [cwT_eq]
  exact (truncf_apply (ψ := .bf16) _ bitsLt_bf16_f32 _).trans (transpose_ix2_apply _ transposes_S512x256_S256x512_1_0 k q)

/-- T0 with a leading unit axis. -/
theorem t0row_eq : (V m c main_v8 : S1x256.Idx → EReal)
    = shapeCast S1x256 (argT0 m c) shapeCasts_S256_S1x256 := by
  dsimp only [Gen.V, Gen.hostOps0]; after_results; rfl

theorem t0row_apply (k : Fin 256) :
    V m c main_v8 (ix2 (0 : Fin 1) k) = argT0 m c (ix1 k) := by
  rw [t0row_eq]
  exact shapeCast_a_1a_apply _ shapeCasts_S256_S1x256 0 k

/-- C_b with a leading unit axis. -/
theorem cbrow_eq : (V m c main_v9 : S1x512.Idx → EReal)
    = shapeCast S1x512 (argCb m c) shapeCasts_S512_S1x512 := by
  dsimp only [Gen.V, Gen.hostOps0]; after_results; rfl

theorem cbrow_apply (q : Fin 512) :
    V m c main_v9 (ix2 (0 : Fin 1) q) = argCb m c (ix1 q) := by
  rw [cbrow_eq]
  exact shapeCast_a_1a_apply _ shapeCasts_S512_S1x512 0 q

end Cert.KernelIdeal.Operands

end
-- ==== Proof.KernelValue.lean ====
/-
  The kernel's output array after the run is the specification.

  The grid has 64 points; point t works on rows t · 1024 … t · 1024 + 1023 of z and of the output and on the WHOLE of the
  four small operands (their block index is 0 at every point). So what point t writes back is the body's result on
  row block t, which entry by entry is the specification at the block's global row, and the 64 row blocks tile the
  65536 rows.
-/
import proofs.«154726_j21371757265197_2_alg».proof.Proof.Gen.KernelIdeal.Value
import proofs.«154726_j21371757265197_2_alg».proof.Proof.KernelBody
import proofs.«154726_j21371757265197_2_alg».proof.Proof.KernelOperands
import proofs.«154726_j21371757265197_2_alg».proof.Proof.LegendreSpec

noncomputable section

open scoped BigOperators

namespace Cert.KernelIdeal.Whole

open Cert.KernelIdeal Cert.KernelIdeal.Gen Cert.KernelIdeal.Body Cert.KernelIdeal.Operands
open Idealize.ShloMosaic Idealize.ShloMosaic.TcCoe Idealize.ShloMosaic.ValueIdx Idealize.SL.Sem Cert.Legendre
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the 64 grid points: z's and the output's block index is (t, 0), every other operand's (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The global row of row p of point t's block. -/
def rowOf (t : Fin cfg0.N) (p : Fin 1024) : Fin 65536 :=
  ⟨t.val * 1024 + p.val, by have ht : t.val < 64 := t.isLt; have hp := p.isLt; omega⟩

/-- Point t's block of z, at (p, d): z at the block's global row. -/
theorem read_z (c : Dev nD) (t : Fin cfg0.N) (p : Fin 1024) (d : Fin 512) :
    iblk m c 0 t (ix2 p d) = argZ m c (ix2 (rowOf t p) d) := by
  obtain ⟨e0, e1, -⟩ := index_facts t
  show V m c main_arg0 (((cfg0.win 0).blk t).view.emb (ix2 p d)) = _
  refine (congrFun (V_main_arg0 m c) _).trans (congrArg (m ((c : Thread nD τ).loc main_arg0)) ?_)
  funext a; apply Fin.ext
  match a with
  | ⟨0, _⟩ => show win0_0.index t (0 : Fin 2) * 1024 + 1 * p.val = t.val * 1024 + p.val; omega
  | ⟨1, _⟩ => show win0_0.index t (1 : Fin 2) * 512 + 1 * d.val = d.val; omega

/-- Point t's block of the degree-0 row is the whole row. -/
theorem read_t0row (c : Dev nD) (t : Fin cfg0.N) (k : Fin 256) :
    iblk m c 1 t (ix2 (0 : Fin 1) k) = argT0 m c (ix1 k) := by
  obtain ⟨-, -, e0, e1, -⟩ := index_facts t
  show V m c main_v8 (((cfg0.win 1).blk t).view.emb (ix2 (0 : Fin 1) k)) = _
  refine (congrArg (V m c main_v8) ?_).trans (t0row_apply m c k)
  funext a; apply Fin.ext
  match a with
  | ⟨0, _⟩ => show win0_1.index t (0 : Fin 2) * 1 + 1 * 0 = 0; omega
  | ⟨1, _⟩ => show win0_1.index t (1 : Fin 2) * 256 + 1 * k.val = k.val; omega

/-- Point t's block of the packed weights is the whole packed array: column n · 256 + k of row d is T[n, k, d] · a[n]. -/
theorem read_packed (c : Dev nD) (t : Fin cfg0.N) (d : Fin 512) (n : Fin 8) (k : Fin 256) (col : Fin 2048)
    (hcol : col.val = n.val * 256 + k.val) :
    iblk m c 2 t (ix2 d col) = argT m c (ix3 n k d) * Ideal.ofBits .f32 (lit0 n) := by
  obtain ⟨-, -, -, -, e0, e1, -⟩ := index_facts t
  show V m c main_v5 (((cfg0.win 2).blk t).view.emb (ix2 d col)) = _
  refine (congrArg (V m c main_v5) ?_).trans (packed_apply m c d n k col hcol)
  funext a; apply Fin.ext
  match a with
  | ⟨0, _⟩ => show win0_2.index t (0 : Fin 2) * 512 + 1 * d.val = d.val; omega
  | ⟨1, _⟩ => show win0_2.index t (1 : Fin 2) * 2048 + 1 * col.val = col.val; omega

/-- Point t's block of the transposed C_w is the whole of it. -/
theorem read_cwT (c : Dev nD) (t : Fin cfg0.N) (k : Fin 256) (q : Fin 512) :
    iblk m c 3 t (ix2 k q) = argCw m c (ix2 q k) := by
  obtain ⟨-, -, -, -, -, -, e0, e1, -⟩ := index_facts t
  show V m c main_v7 (((cfg0.win 3).blk t).view.emb (ix2 k q)) = _
  refine (congrArg (V m c main_v7) ?_).trans (cwT_apply m c k q)
  funext a; apply Fin.ext
  match a with
  | ⟨0, _⟩ => show win0_3.index t (0 : Fin 2) * 256 + 1 * k.val = k.val; omega
  | ⟨1, _⟩ => show win0_3.index t (1 : Fin 2) * 512 + 1 * q.val = q.val; omega

/-- Point t's block of the bias row is the whole row. -/
theorem read_cbrow (c : Dev nD) (t : Fin cfg0.N) (q : Fin 512) :
    iblk m c 4 t (ix2 (0 : Fin 1) q) = argCb m c (ix1 q) := by
  obtain ⟨-, -, -, -, -, -, -, -, e0, e1, -⟩ := index_facts t
  show V m c main_v9 (((cfg0.win 4).blk t).view.emb (ix2 (0 : Fin 1) q)) = _
  refine (congrArg (V m c main_v9) ?_).trans (cbrow_apply m c q)
  funext a; apply Fin.ext
  match a with
  | ⟨0, _⟩ => show win0_4.index t (0 : Fin 2) * 1 + 1 * 0 = 0; omega
  | ⟨1, _⟩ => show win0_4.index t (1 : Fin 2) * 512 + 1 * q.val = q.val; omega

/-- An entry of the fused product at point t, in slab n: row `rowOf t p` of z against T[n]'s row k scaled ON THE RIGHT
    by the table's entry n. -/
theorem fused_block (c : Dev nD) (t : Fin cfg0.N) (p : Fin 1024) (n : Fin 8) (k : Fin 256) (col : Fin 2048)
    (hcol : col.val = n.val * 256 + k.val) :
    fused (iblk m c 0 t) (iblk m c 2 t) p col
      = proj (argZ m c) (rowOf t p) (fun d => argT m c (ix3 n k d) * Ideal.ofBits .f32 (lit0 n)) :=
  Finset.sum_congr rfl fun d _ =>
    congrArg₂ (fun a b : EReal => a * b) (read_z m c t p d) (read_packed m c t d n k col hcol)

/-- The same with the scale on the left, as the specification writes degrees 2 … 8. -/
theorem fused_scaled (c : Dev nD) (t : Fin cfg0.N) (p : Fin 1024) (n : Fin 8) (k : Fin 256) (col : Fin 2048)
    (hcol : col.val = n.val * 256 + k.val) :
    fused (iblk m c 0 t) (iblk m c 2 t) p col
      = proj (argZ m c) (rowOf t p) (fun d => Ideal.ofBits .f32 (lit0 n) * argT m c (ix3 n k d)) :=
  (fused_block m c t p n k col hcol).trans (proj_scale_comm (argZ m c) (rowOf t p) _ fun d => argT m c (ix3 n k d))

/-- Slab 0 is scaled by the pattern of 1.0: the unscaled degree-1 projection. -/
theorem fused_first (c : Dev nD) (t : Fin cfg0.N) (p : Fin 1024) (k : Fin 256) (col : Fin 2048) (hcol : col.val = 0 + k.val) :
    fused (iblk m c 0 t) (iblk m c 2 t) p col = proj (argZ m c) (rowOf t p) (fun d => argT m c (ix3 (0 : Fin 8) k d)) :=
  (fused_block m c t p 0 k col (by show col.val = 0 * 256 + k.val; omega)).trans
    (proj_scale_one (argZ m c) (rowOf t p) fun d => argT m c (ix3 (0 : Fin 8) k d))

/-- The recurrence at point t, entry (p, k), is the specification's degree-8 value at the block's global row. -/
theorem deg8_block (c : Dev nD) (t : Fin cfg0.N) (p : Fin 1024) (k : Fin 256) :
    leg (fused (iblk m c 0 t) (iblk m c 2 t) p ⟨0 + k.val, by omega⟩)
        (fused (iblk m c 0 t) (iblk m c 2 t) p ⟨256 + k.val, by omega⟩)
        (fused (iblk m c 0 t) (iblk m c 2 t) p ⟨512 + k.val, by omega⟩)
        (fused (iblk m c 0 t) (iblk m c 2 t) p ⟨768 + k.val, by omega⟩)
        (fused (iblk m c 0 t) (iblk m c 2 t) p ⟨1024 + k.val, by omega⟩)
        (fused (iblk m c 0 t) (iblk m c 2 t) p ⟨1280 + k.val, by omega⟩)
        (fused (iblk m c 0 t) (iblk m c 2 t) p ⟨1536 + k.val, by omega⟩)
        (fused (iblk m c 0 t) (iblk m c 2 t) p ⟨1792 + k.val, by omega⟩)
        (iblk m c 1 t (ix2 (0 : Fin 1) k))
      = deg8 (argZ m c) (argT0 m c) (argT m c) (rowOf t p) k := by
  rw [fused_first m c t p k _ rfl,
    fused_scaled m c t p 1 k ⟨256 + k.val, by omega⟩ (by show 256 + k.val = 1 * 256 + k.val; omega),
    fused_scaled m c t p 2 k ⟨512 + k.val, by omega⟩ (by show 512 + k.val = 2 * 256 + k.val; omega),
    fused_scaled m c t p 3 k ⟨768 + k.val, by omega⟩ (by show 768 + k.val = 3 * 256 + k.val; omega),
    fused_scaled m c t p 4 k ⟨1024 + k.val, by omega⟩ (by show 1024 + k.val = 4 * 256 + k.val; omega),
    fused_scaled m c t p 5 k ⟨1280 + k.val, by omega⟩ (by show 1280 + k.val = 5 * 256 + k.val; omega),
    fused_scaled m c t p 6 k ⟨1536 + k.val, by omega⟩ (by show 1536 + k.val = 6 * 256 + k.val; omega),
    fused_scaled m c t p 7 k ⟨1792 + k.val, by omega⟩ (by show 1792 + k.val = 7 * 256 + k.val; omega),
    read_t0row m c t k]
  rfl

/-- WHAT POINT t WRITES BACK is block t of the specification of the argument arrays. -/
theorem flushed_eq (c : Dev nD) (t : Fin cfg0.N) :
    (dats m 0 c).flushed 5 t
      = ((cfg0.win 5).blk t).view.read (Elt Ideal) (net (argZ m c) (argT0 m c) (argT m c) (argCw m c) (argCb m c)) := by
  rw [Cert.KernelIdeal.Value.flushed5]
  unfold out0_5
  rw [View.canon_unit_zero zero_offsets]
  simp only [View.ld_unit_zero (S := S1024x512) zero_offsets, View.ld_unit_zero (S := S512x2048) zero_offsets,
    View.ld_unit_zero (S := S1x256) zero_offsets, View.ld_unit_zero (S := S256x512) zero_offsets,
    View.ld_unit_zero (S := S1x512) zero_offsets]
  obtain ⟨-, -, -, -, -, -, -, -, -, -, e0, e1⟩ := index_facts t
  funext j
  obtain ⟨p, q, rfl⟩ : ∃ (p : Fin 1024) (q : Fin 512), j = ix2 p q := ⟨j 0, j 1, eq_ix2 j⟩
  show k0_pay1 (F := Ideal) (k0_pay2 (F := Ideal) (iblk m c 0 t) (iblk m c 2 t) (iblk m c 1 t)) (iblk m c 3 t) (iblk m c 4 t) (ix2 p q)
    = net (argZ m c) (argT0 m c) (argT m c) (argCw m c) (argCb m c) (((cfg0.win 5).blk t).view.emb (ix2 p q))
  have hemb : ((cfg0.win 5).blk t).view.emb (ix2 p q) = ix2 (rowOf t p) q := by
    funext a; apply Fin.ext
    match a with
    | ⟨0, _⟩ => show win0_5.index t (0 : Fin 2) * 1024 + 1 * p.val = t.val * 1024 + p.val; omega
    | ⟨1, _⟩ => show win0_5.index t (1 : Fin 2) * 512 + 1 * q.val = q.val; omega
  rw [hemb, net_ix2]
  refine (body_apply (iblk m c 0 t) (iblk m c 1 t) (iblk m c 2 t) (iblk m c 3 t) (iblk m c 4 t) p q).trans ?_
  unfold outAt
  rw [read_cbrow m c t q]
  refine congrArg (· + argCb m c (ix1 q)) (Finset.sum_congr rfl fun k _ => ?_)
  rw [deg8_block m c t p k, read_cwT m c t k q]

/-- An index of the output array is in point t's block iff each coordinate is in the block's range on its axis. -/
theorem mem_blk (t : Fin cfg0.N) (i : S65536x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v10).slice (win0_5.rect t)).set ↔ _
  rw [View.set_slice_whole, Rect.mem_set_unit]
  exact Iff.rfl

/-- Every index of the output array lies in the block of the point its row selects: row r is in block r / 1024. -/
theorem covered (i : S65536x512.Idx) :
    ∃ t : Fin cfg0.N, (cfg0.win 5).flush t = true ∧ i ∈ ((cfg0.win 5).blk t).view.set := by
  have h0 : (i 0).val < 65536 := (i 0).isLt
  have h1 : (i 1).val < 512 := (i 1).isLt
  have ht : (i 0).val / 1024 < 64 := by omega
  refine ⟨⟨(i 0).val / 1024, ht⟩, flush0_5 _, ?_⟩
  obtain ⟨-, -, -, -, -, -, -, -, -, -, e0, e1⟩ := index_facts ⟨(i 0).val / 1024, ht⟩
  rw [mem_blk]
  intro a
  match a with
  | ⟨0, _⟩ =>
    show win0_5.index ⟨(i 0).val / 1024, ht⟩ (0 : Fin 2) * 1024 ≤ (i 0).val ∧ (i 0).val < win0_5.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_5.index ⟨(i 0).val / 1024, ht⟩ (1 : Fin 2) * 512 ≤ (i 1).val ∧ (i 1).val < win0_5.index ⟨(i 0).val / 1024, ht⟩ (1 : Fin 2) * 512 + 512
    rw [e1]; omega

/-- THE OUTPUT ARRAY after the run is the specification of the argument arrays. -/
theorem final (c : Dev nD) :
    (dats m 0 c).arrAt 5 cfg0.N = net (argZ m c) (argT0 m c) (argT m c) (argCw m c) (argCb m c) :=
  (dats m 0 c).arrAt_eq_of_cover 5 _ (fun t _ => flushed_eq m c t) covered

/-- The kernel's run: every weakly fair execution ends with the output array at the specification and the arguments
    unchanged. -/
theorem run : θ_run defs (onTc (τ := τ) (main (F := Ideal))) ⟨m, fun _ => 0, ρ⟩ fun r => ∀ c : Dev nD,
      r.2.mem ((c : Thread nD τ).loc main_v10) = net (argZ m c) (argT0 m c) (argT m c) (argCw m c) (argCb m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.LibStackSlab.lean ====
/-
  One matrix of a stack, read at an entry.

  A stack X of N matrices of a × b (shape [N, a, b]) cut to its n-th matrix (the slice [n : n+1, 0 : a, 0 : b], shape
  [1, a, b]) and stripped of the unit axis (reshaped to [a, b]) reads, at (k, d), the stack at (n, k, d) — how `T[n]`
  of a rank-3 array reads at an index.
-/
import Idealize.ShloMosaic.Lib.ValueLayout
import Idealize.ShloMosaic.Lib.Pipeline.Value

noncomputable section

namespace Cert.LibStackSlab

open Idealize.ShloMosaic Idealize.ShloMosaic.ValueIdx

/-- Matrix n of a stack of N matrices, cut out at offset `off = n` along the leading axis and reshaped to a matrix,
    read at (k, d): the stack at (n, k, d). -/
theorem stackSlab_apply {α : Type} {N a b : ℕ} (off : Nat) (n : Fin N) (hn : n.val = off)
    (X : (⟨3, ![N, a, b]⟩ : Shape).Idx → α)
    (h : (⟨3, ![N, a, b]⟩ : Shape).Slices ![off, 0, 0] ⟨3, ![1, a, b]⟩)
    (h' : (⟨3, ![1, a, b]⟩ : Shape).ShapeCasts ⟨2, ![a, b]⟩) (k : Fin a) (d : Fin b) :
    shapeCast ⟨2, ![a, b]⟩ (extractStridedSlice ⟨3, ![1, a, b]⟩ ![off, 0, 0] X h) h' (ix2 k d) = X (ix3 n k d) := by
  refine (shapeCast_1ab_ab_apply _ h' k d).trans ?_
  refine extractStridedSlice_apply ![off, 0, 0] X h (ix3 (0 : Fin 1) k d) (ix3 n k d) fun ax => ?_
  match ax with
  | ⟨0, _⟩ => show n.val = off + 0; omega
  | ⟨1, _⟩ => show k.val = 0 + k.val; omega
  | ⟨2, _⟩ => show d.val = 0 + d.val; omega

end Cert.LibStackSlab

end
-- ==== Proof.ReferenceValue.lean ====
/-
  The reference's result, stage by stage, is the specification.

  Each of its eight einsums contracts row i of z with row k of one 256 × 512 slab of T — slab n cut out of T and
  reshaped, scaled by a_n for n ≥ 1 —; the recurrence is spelt out stage by stage with the constants b_n broadcast from
  scalars (and, for degree 2, with b_2 · T0 formed as a vector and broadcast down the rows); the last product contracts
  the degree-8 values with the transposed C_w, and C_b is broadcast down the rows and added.
-/
import proofs.«154726_j21371757265197_2_alg».proof.Proof.Gen.ReferenceIdeal.Read
import proofs.«154726_j21371757265197_2_alg».proof.Proof.LegendreSpec
import proofs.«154726_j21371757265197_2_alg».proof.Proof.LibStackSlab
import Idealize.ShloMosaic.Lib.ValueLayout

noncomputable section

open scoped BigOperators

namespace Cert.ReferenceIdeal.RefValue

open Cert.ReferenceIdeal Cert.ReferenceIdeal.Gen Cert.ReferenceIdeal.Read Idealize.ShloMosaic Idealize.ShloMosaic.ValueIdx Cert.Legendre

variable (x0 : (⟨S65536x512, .f32⟩ : BufTy).Contents (Elt Ideal)) (x1 : (⟨S256, .f32⟩ : BufTy).Contents (Elt Ideal))
  (x2 : (⟨S8x256x512, .f32⟩ : BufTy).Contents (Elt Ideal)) (x3 : (⟨S512x256, .f32⟩ : BufTy).Contents (Elt Ideal))
  (x4 : (⟨S512, .f32⟩ : BufTy).Contents (Elt Ideal))

/-- Degree 1's einsum at (i, k): row i of z against T[0]'s row k. -/
theorem proj1_apply (i : Fin 65536) (k : Fin 256) :
    val_main_v2 (F := Ideal) x0 x2 (ix2 i k) = proj x0 i (fun d => x2 (ix3 (0 : Fin 8) k d)) := by
  rw [val_main_v2_apply]
  refine Finset.sum_congr rfl fun d _ => ?_
  have hl : lidx_main_v2 (ix2 i k) d = ix2 i d := funext fun a => by match a with | ⟨0, _⟩ => rfl | ⟨1, _⟩ => rfl
  have hr : ridx_main_v2 (ix2 i k) d = ix2 k d := funext fun a => by match a with | ⟨0, _⟩ => rfl | ⟨1, _⟩ => rfl
  rw [hl, hr]
  exact congrArg (x0 (ix2 i d) * ·) (Cert.LibStackSlab.stackSlab_apply 0 (0 : Fin 8) rfl x2 slices_S8x256x512_S1x256x512_0_0_0 shapeCasts_S1x256x512_S256x512 k d)

/-- Degree 2's einsum at (i, k): row i of z against the scaled T[1]'s row k. -/
theorem proj2_apply (i : Fin 65536) (k : Fin 256) :
    val_main_v7 (F := Ideal) x0 x2 (ix2 i k) = proj x0 i (fun d => Ideal.ofBits .f32 0x3FC00000#32 * x2 (ix3 (1 : Fin 8) k d)) := by
  rw [val_main_v7_apply]
  refine Finset.sum_congr rfl fun d _ => ?_
  have hl : lidx_main_v7 (ix2 i k) d = ix2 i d := funext fun a => by match a with | ⟨0, _⟩ => rfl | ⟨1, _⟩ => rfl
  have hr : ridx_main_v7 (ix2 i k) d = ix2 k d := funext fun a => by match a with | ⟨0, _⟩ => rfl | ⟨1, _⟩ => rfl
  rw [hl, hr]
  refine congrArg (x0 (ix2 i d) * ·) ?_
  show val_main_v5 (F := Ideal) (ix2 k d) * val_main_v4 (F := Ideal) x2 (ix2 k d) = _
  rw [val_main_v5_apply]
  exact congrArg (Ideal.ofBits .f32 0x3FC00000#32 * ·)
    (Cert.LibStackSlab.stackSlab_apply 1 (1 : Fin 8) rfl x2 slices_S8x256x512_S1x256x512_1_0_0 shapeCasts_S1x256x512_S256x512 k d)

/-- Degree 3's einsum at (i, k): row i of z against the scaled T[2]'s row k. -/
theorem proj3_apply (i : Fin 65536) (k : Fin 256) :
    val_main_v18 (F := Ideal) x0 x2 (ix2 i k) = proj x0 i (fun d => Ideal.ofBits .f32 0x3FD55555#32 * x2 (ix3 (2 : Fin 8) k d)) := by
  rw [val_main_v18_apply]
  refine Finset.sum_congr rfl fun d _ => ?_
  have hl : lidx_main_v18 (ix2 i k) d = ix2 i d := funext fun a => by match a with | ⟨0, _⟩ => rfl | ⟨1, _⟩ => rfl
  have hr : ridx_main_v18 (ix2 i k) d = ix2 k d := funext fun a => by match a with | ⟨0, _⟩ => rfl | ⟨1, _⟩ => rfl
  rw [hl, hr]
  refine congrArg (x0 (ix2 i d) * ·) ?_
  show val_main_v16 (F := Ideal) (ix2 k d) * val_main_v15 (F := Ideal) x2 (ix2 k d) = _
  rw [val_main_v16_apply]
  exact congrArg (Ideal.ofBits .f32 0x3FD55555#32 * ·)
    (Cert.LibStackSlab.stackSlab_apply 2 (2 : Fin 8) rfl x2 slices_S8x256x512_S1x256x512_2_0_0 shapeCasts_S1x256x512_S256x512 k d)

/-- Degree 4's einsum at (i, k): row i of z against the scaled T[3]'s row k. -/
theorem proj4_apply (i : Fin 65536) (k : Fin 256) :
    val_main_v27 (F := Ideal) x0 x2 (ix2 i k) = proj x0 i (fun d => Ideal.ofBits .f32 0x3FE00000#32 * x2 (ix3 (3 : Fin 8) k d)) := by
  rw [val_main_v27_apply]
  refine Finset.sum_congr rfl fun d _ => ?_
  have hl : lidx_main_v27 (ix2 i k) d = ix2 i d := funext fun a => by match a with | ⟨0, _⟩ => rfl | ⟨1, _⟩ => rfl
  have hr : ridx_main_v27 (ix2 i k) d = ix2 k d := funext fun a => by match a with | ⟨0, _⟩ => rfl | ⟨1, _⟩ => rfl
  rw [hl, hr]
  refine congrArg (x0 (ix2 i d) * ·) ?_
  show val_main_v25 (F := Ideal) (ix2 k d) * val_main_v24 (F := Ideal) x2 (ix2 k d) = _
  rw [val_main_v25_apply]
  exact congrArg (Ideal.ofBits .f32 0x3FE00000#32 * ·)
    (Cert.LibStackSlab.stackSlab_apply 3 (3 : Fin 8) rfl x2 slices_S8x256x512_S1x256x512_3_0_0 shapeCasts_S1x256x512_S256x512 k d)

/-- Degree 5's einsum at (i, k): row i of z against the scaled T[4]'s row k. -/
theorem proj5_apply (i : Fin 65536) (k : Fin 256) :
    val_main_v36 (F := Ideal) x0 x2 (ix2 i k) = proj x0 i (fun d => Ideal.ofBits .f32 0x3FE66666#32 * x2 (ix3 (4 : Fin 8) k d)) := by
  rw [val_main_v36_apply]
  refine Finset.sum_congr rfl fun d _ => ?_
  have hl : lidx_main_v36 (ix2 i k) d = ix2 i d := funext fun a => by match a with | ⟨0, _⟩ => rfl | ⟨1, _⟩ => rfl
  have hr : ridx_main_v36 (ix2 i k) d = ix2 k d := funext fun a => by match a with | ⟨0, _⟩ => rfl | ⟨1, _⟩ => rfl
  rw [hl, hr]
  refine congrArg (x0 (ix2 i d) * ·) ?_
  show val_main_v34 (F := Ideal) (ix2 k d) * val_main_v33 (F := Ideal) x2 (ix2 k d) = _
  rw [val_main_v34_apply]
  exact congrArg (Ideal.ofBits .f32 0x3FE66666#32 * ·)
    (Cert.LibStackSlab.stackSlab_apply 4 (4 : Fin 8) rfl x2 slices_S8x256x512_S1x256x512_4_0_0 shapeCasts_S1x256x512_S256x512 k d)

/-- Degree 6's einsum at (i, k): row i of z against the scaled T[5]'s row k. -/
theorem proj6_apply (i : Fin 65536) (k : Fin 256) :
    val_main_v45 (F := Ideal) x0 x2 (ix2 i k) = proj x0 i (fun d => Ideal.ofBits .f32 0x3FEAAAAB#32 * x2 (ix3 (5 : Fin 8) k d)) := by
  rw [val_main_v45_apply]
  refine Finset.sum_congr rfl fun d _ => ?_
  have hl : lidx_main_v45 (ix2 i k) d = ix2 i d := funext fun a => by match a with | ⟨0, _⟩ => rfl | ⟨1, _⟩ => rfl
  have hr : ridx_main_v45 (ix2 i k) d = ix2 k d := funext fun a => by match a with | ⟨0, _⟩ => rfl | ⟨1, _⟩ => rfl
  rw [hl, hr]
  refine congrArg (x0 (ix2 i d) * ·) ?_
  show val_main_v43 (F := Ideal) (ix2 k d) * val_main_v42 (F := Ideal) x2 (ix2 k d) = _
  rw [val_main_v43_apply]
  exact congrArg (Ideal.ofBits .f32 0x3FEAAAAB#32 * ·)
    (Cert.LibStackSlab.stackSlab_apply 5 (5 : Fin 8) rfl x2 slices_S8x256x512_S1x256x512_5_0_0 shapeCasts_S1x256x512_S256x512 k d)

/-- Degree 7's einsum at (i, k): row i of z against the scaled T[6]'s row k. -/
theorem proj7_apply (i : Fin 65536) (k : Fin 256) :
    val_main_v54 (F := Ideal) x0 x2 (ix2 i k) = proj x0 i (fun d => Ideal.ofBits .f32 0x3FEDB6DB#32 * x2 (ix3 (6 : Fin 8) k d)) := by
  rw [val_main_v54_apply]
  refine Finset.sum_congr rfl fun d _ => ?_
  have hl : lidx_main_v54 (ix2 i k) d = ix2 i d := funext fun a => by match a with | ⟨0, _⟩ => rfl | ⟨1, _⟩ => rfl
  have hr : ridx_main_v54 (ix2 i k) d = ix2 k d := funext fun a => by match a with | ⟨0, _⟩ => rfl | ⟨1, _⟩ => rfl
  rw [hl, hr]
  refine congrArg (x0 (ix2 i d) * ·) ?_
  show val_main_v52 (F := Ideal) (ix2 k d) * val_main_v51 (F := Ideal) x2 (ix2 k d) = _
  rw [val_main_v52_apply]
  exact congrArg (Ideal.ofBits .f32 0x3FEDB6DB#32 * ·)
    (Cert.LibStackSlab.stackSlab_apply 6 (6 : Fin 8) rfl x2 slices_S8x256x512_S1x256x512_6_0_0 shapeCasts_S1x256x512_S256x512 k d)

/-- Degree 8's einsum at (i, k): row i of z against the scaled T[7]'s row k. -/
theorem proj8_apply (i : Fin 65536) (k : Fin 256) :
    val_main_v63 (F := Ideal) x0 x2 (ix2 i k) = proj x0 i (fun d => Ideal.ofBits .f32 0x3FF00000#32 * x2 (ix3 (7 : Fin 8) k d)) := by
  rw [val_main_v63_apply]
  refine Finset.sum_congr rfl fun d _ => ?_
  have hl : lidx_main_v63 (ix2 i k) d = ix2 i d := funext fun a => by match a with | ⟨0, _⟩ => rfl | ⟨1, _⟩ => rfl
  have hr : ridx_main_v63 (ix2 i k) d = ix2 k d := funext fun a => by match a with | ⟨0, _⟩ => rfl | ⟨1, _⟩ => rfl
  rw [hl, hr]
  refine congrArg (x0 (ix2 i d) * ·) ?_
  show val_main_v61 (F := Ideal) (ix2 k d) * val_main_v60 (F := Ideal) x2 (ix2 k d) = _
  rw [val_main_v61_apply]
  exact congrArg (Ideal.ofBits .f32 0x3FF00000#32 * ·)
    (Cert.LibStackSlab.stackSlab_apply 7 (7 : Fin 8) rfl x2 slices_S8x256x512_S1x256x512_7_0_0 shapeCasts_S1x256x512_S256x512 k d)

/-- Degree 2's subtrahend: b_2 · T0 formed as a vector, given a unit axis and broadcast down the rows, at (i, k). -/
theorem half_t0_apply (i : Fin 65536) (k : Fin 256) :
    val_main_v12 (F := Ideal) x1 (ix2 i k) = Ideal.ofBits .f32 0x3F000000#32 * x1 (ix1 k) := by
  rw [val_main_v12_apply, val_main_v11_apply]
  have hi : idx_main_v11 (idx_main_v12 (ix2 i k)) = ix1 k := funext fun a => by match a with | ⟨0, _⟩ => rfl
  rw [hi]
  show val_main_v9 (F := Ideal) (ix1 k) * x1 (ix1 k) = _
  rw [val_main_v9_apply]
  rfl

/-- The scalar b_3 broadcast over the 65536 × 256 array reads b_3 everywhere. -/
theorem b3_apply (j : S65536x256.Idx) : val_main_v20 (F := Ideal) j = Ideal.ofBits .f32 0x3F2AAAAB#32 :=
  (val_main_v20_apply j).trans rfl

/-- The scalar b_4 broadcast over the 65536 × 256 array reads b_4 everywhere. -/
theorem b4_apply (j : S65536x256.Idx) : val_main_v29 (F := Ideal) j = Ideal.ofBits .f32 0x3F400000#32 :=
  (val_main_v29_apply j).trans rfl

/-- The scalar b_5 broadcast over the 65536 × 256 array reads b_5 everywhere. -/
theorem b5_apply (j : S65536x256.Idx) : val_main_v38 (F := Ideal) j = Ideal.ofBits .f32 0x3F4CCCCD#32 :=
  (val_main_v38_apply j).trans rfl

/-- The scalar b_6 broadcast over the 65536 × 256 array reads b_6 everywhere. -/
theorem b6_apply (j : S65536x256.Idx) : val_main_v47 (F := Ideal) j = Ideal.ofBits .f32 0x3F555555#32 :=
  (val_main_v47_apply j).trans rfl

/-- The scalar b_7 broadcast over the 65536 × 256 array reads b_7 everywhere. -/
theorem b7_apply (j : S65536x256.Idx) : val_main_v56 (F := Ideal) j = Ideal.ofBits .f32 0x3F5B6DB7#32 :=
  (val_main_v56_apply j).trans rfl

/-- The scalar b_8 broadcast over the 65536 × 256 array reads b_8 everywhere. -/
theorem b8_apply (j : S65536x256.Idx) : val_main_v65 (F := Ideal) j = Ideal.ofBits .f32 0x3F600000#32 :=
  (val_main_v65_apply j).trans rfl

/-- The degree-8 stage at (i, k) is the specification's degree-8 value: the stages of the recurrence are entry by
    entry the recurrence's steps over the eight einsums. -/
theorem deg8_apply (i : Fin 65536) (k : Fin 256) :
    val_main_v67 (F := Ideal) x0 x1 x2 (ix2 i k) = deg8 x0 x1 x2 i k := by
  unfold deg8
  rw [← proj1_apply x0 x2 i k, ← proj2_apply x0 x2 i k, ← proj3_apply x0 x2 i k, ← proj4_apply x0 x2 i k,
    ← proj5_apply x0 x2 i k, ← proj6_apply x0 x2 i k, ← proj7_apply x0 x2 i k, ← proj8_apply x0 x2 i k]
  simp only [val_main_v67_apply, val_main_v64_apply, val_main_v66_apply, val_main_v58_apply, val_main_v55_apply,
    val_main_v57_apply, val_main_v49_apply, val_main_v46_apply, val_main_v48_apply, val_main_v40_apply,
    val_main_v37_apply, val_main_v39_apply, val_main_v31_apply, val_main_v28_apply, val_main_v30_apply,
    val_main_v22_apply, val_main_v19_apply, val_main_v21_apply, val_main_v13_apply, val_main_v8_apply,
    half_t0_apply, b3_apply, b4_apply, b5_apply, b6_apply, b7_apply, b8_apply, Ideal.mulf_def, Ideal.subf_def]
  rfl

/-- THE REFERENCE'S RESULT is the specification of its arguments. -/
theorem result_eq : val_main_v72 (F := Ideal) x0 x1 x2 x3 x4 = net x0 x1 x2 x3 x4 := by
  funext j
  obtain ⟨i, o, rfl⟩ : ∃ (i : Fin 65536) (o : Fin 512), j = ix2 i o := ⟨j 0, j 1, eq_ix2 j⟩
  rw [net_ix2]
  unfold outAt
  show val_main_v69 (F := Ideal) x0 x1 x2 x3 (ix2 i o) + val_main_v71 (F := Ideal) x4 (ix2 i o) = _
  rw [val_main_v69_apply, val_main_v71_apply, val_main_v70_apply]
  have hc : idx_main_v70 (idx_main_v71 (ix2 i o)) = ix1 o := funext fun a => by match a with | ⟨0, _⟩ => rfl
  rw [hc]
  refine congrArg (· + x4 (ix1 o)) (Finset.sum_congr rfl fun k _ => ?_)
  have hl : lidx_main_v69 (ix2 i o) k = ix2 i k := funext fun a => by match a with | ⟨0, _⟩ => rfl | ⟨1, _⟩ => rfl
  have hr : ridx_main_v69 (ix2 i o) k = ix2 k o := funext fun a => by match a with | ⟨0, _⟩ => rfl | ⟨1, _⟩ => rfl
  have ht : idx_main_v68 (ix2 k o) = ix2 o k := funext fun a => by match a with | ⟨0, _⟩ => rfl | ⟨1, _⟩ => rfl
  rw [hl, hr, deg8_apply, val_main_v68_apply, ht]

end Cert.ReferenceIdeal.RefValue

end
-- ==== Proof.lean ====
/-
  A Legendre-recurrence network, fused kernel against the plain composition.

  Both programs map z (65536 × 512), T0 (256), T (8 × 256 × 512), C_w (512 × 256) and C_b (512) to the 65536 × 512 array
      out[i, o] = Σ_k P_8(i, k) · C_w[o, k] + C_b[o],
  where P_0 = T0[k], P_1 = s_1 and P_n = s_n · P_{n-1} - b_n · P_{n-2} up to degree 8, s_n(i, k) = Σ_d z[i, d] · w_n[k, d] being
  row i of z against row k of degree n's weights (T[0] for n = 1, a_n · T[n-1] beyond).

  The kernel packs all eight scaled weight slabs side by side into one 512 × 2048 matrix on the host — scaling T[0] by 1.0
  and T[n] by a_n ON THE RIGHT —, and at each of 64 grid points multiplies a 1024-row block of z with it once, cuts the product
  into eight 256-column slabs, runs the recurrence on the slabs, and applies the affine layer; the reference takes eight
  separate contractions of z with a_n · T[n-1] (scaled on the left, degree 1 unscaled) and the same stages on whole arrays.
  On extended reals the two agree entry by entry: a sum's terms are the same up to the commutativity of the product and
  x · 1 = x, the roundings to bf16 in front of the kernel's two products are the identity, and every other constant is the
  same f32 pattern on both sides. Nothing here needs the inputs to be finite.

  The frames are the generated ones (the reference's is its generated run with the result dropped); the idealization
  rewrote nothing, so the kernel read on extended reals is its own text.
-/
import proofs.«154726_j21371757265197_2_alg».proof.Defs
import proofs.«154726_j21371757265197_2_alg».proof.Proof.Gen.Kernel
import proofs.«154726_j21371757265197_2_alg».proof.Proof.Gen.Kernel.Skeleton
import proofs.«154726_j21371757265197_2_alg».proof.Proof.Gen.Kernel.Launch
import proofs.«154726_j21371757265197_2_alg».proof.Proof.Gen.Kernel.Points
import proofs.«154726_j21371757265197_2_alg».proof.Proof.Gen.Kernel.Frame
import proofs.«154726_j21371757265197_2_alg».proof.Proof.Gen.KernelIdeal
import proofs.«154726_j21371757265197_2_alg».proof.Proof.Gen.KernelIdeal.Skeleton
import proofs.«154726_j21371757265197_2_alg».proof.Proof.Gen.KernelIdeal.Launch
import proofs.«154726_j21371757265197_2_alg».proof.Proof.Gen.KernelIdeal.Points
import proofs.«154726_j21371757265197_2_alg».proof.Proof.Gen.KernelIdeal.Frame
import proofs.«154726_j21371757265197_2_alg».proof.Proof.Gen.ReferenceIdeal
import proofs.«154726_j21371757265197_2_alg».proof.Proof.Gen.Pre_finite_inputs
import proofs.«154726_j21371757265197_2_alg».proof.Proof.Gen.KernelIdeal.Value
import proofs.«154726_j21371757265197_2_alg».proof.Proof.Gen.ReferenceIdeal.Run
import proofs.«154726_j21371757265197_2_alg».proof.Proof.Gen.ReferenceIdeal.Read
import proofs.«154726_j21371757265197_2_alg».proof.Proof.KernelValue
import proofs.«154726_j21371757265197_2_alg».proof.Proof.ReferenceValue
import Idealize.ShloMosaic.Adequacy
import Idealize.ShloMosaic.Init

noncomputable section

namespace Cert.Proof

open Idealize.ShloMosaic Idealize.SL.Sem Cert.KernelIdeal.Operands

/-- The word-level kernel runs and leaves its arguments as they were. -/
theorem frame_kernel : Cert.frame_Kernel := fun m ρ _ => Cert.Kernel.Gen.frame m ρ

/-- So does the kernel read on extended reals. -/
theorem frame_kernelIdeal : Cert.frame_KernelIdeal := fun m ρ _ => Cert.KernelIdeal.Gen.frame m ρ

/-- The reference is a straight line of host operations: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on extended reals. -/
theorem preserves : Cert.preserves_Kernel_KernelIdeal := trivial

/-- From memories that agree on the five arguments both programs end with the network's value of those arguments:
    the kernel block by block, the reference stage by stage. -/
theorem algebraic : Cert.algebraic_KernelIdeal_ReferenceIdeal := by
  intro m ρ m' ρ' _ hagree
  refine ⟨fun c => Cert.Legendre.net (argZ m c) (argT0 m c) (argT m c) (argCw m c) (argCb m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v72_eq, Cert.ReferenceIdeal.RefValue.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
